-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg11 : FVec F S128 .f32) (main_arg12 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg8 : FVec F S128 .f32) (main_arg9 : FVec F S128x128 .f32) (main_arg10 : FVec F S128x128 .f32) (main_arg11 : FVec F S128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg11 main_arg12 main_v33

def fn {F : FTy → Type} [FloatOps F] (main_arg0 : FVec F S50000x128 .f32) (main_arg1 : IVec S600000 32) (main_arg2 : IVec S600000 32) (main_arg3 : FVec F S600000 .f32) (main_arg4 : IVec S600000 32) (main_arg5 : IVec S600000 32) (main_arg6 : FVec F S600000 .f32) (main_arg7 : FVec F S128x128 .f32) (main_arg8 : FVec F S128 .f32) (main_arg9 : FVec F S128x128 .f32) (main_arg10 : FVec F S128x128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S600000 .f32 := Host.absf main_arg6
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_arg11 main_arg12 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 55
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S600000, .i32⟩
  | .hbm, ⟨5, _⟩ => ⟨S600000, .i32⟩
  | .hbm, ⟨6, _⟩ => ⟨S600000, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S600000x1, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S600000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S128x128, .f32⟩
  | .hbm, ⟨46, _⟩ => ⟨S128x128, .bf16⟩
  | .hbm, ⟨47, _⟩ => ⟨S128x128, .f32⟩
  | .hbm, ⟨48, _⟩ => ⟨S128x128, .bf16⟩
  | .hbm, ⟨49, _⟩ => ⟨S128x128, .f32⟩
  | .hbm, ⟨50, _⟩ => ⟨S128x128, .bf16⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S600000, .i32⟩
  | .hbm, ⟨5, _⟩ => ⟨S600000, .i32⟩
  | .hbm, ⟨6, _⟩ => ⟨S600000, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S600000x1, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S600000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S128x128, .f32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S_, .f32⟩
  | .hbm, ⟨60, _⟩ => ⟨S50000x1, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000x1, .f32⟩
  | .hbm, ⟨68, _⟩ => ⟨S_, .f32⟩
  | .hbm, ⟨69, _⟩ => ⟨S50000x1, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call0_cst : Ref sig .tc := ⟨.hbm, 85, rfl⟩
abbrev main_call0_v0 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
import Idealize.ShloMosaic.Lib.ValueIdx
import Idealize.ShloMosaic.PureOps.Ideal.Laws

/-!
The layer both programs compute, on the extended reals, stated row by row.

For one node (one row of the three [N, 128] inputs: the node's own features and its two aggregated neighbourhoods)
the layer is
  * three projections (row times W, with W : [128 in, 128 out]), summed together with a bias (mixRowK and mixRowR: the
    two programs add the four terms in different orders; on the extended reals addition is commutative and
    associative, so the orders agree: mixRowK_eq_mixRowR);
  * a layer normalisation of the resulting 128 numbers: subtract their mean, multiply by the inverse square root of
    the mean square of what is left plus a small constant, then scale and shift per column;
  * a comparison with zero that keeps the larger.

The mean is "the sum divided by 128" and the inverse square root is taken on the extended reals: both programs
spell these the same way, so no law of the arithmetic is needed beyond the reordering of the sum.
-/

noncomputable section

namespace Cert.Layer

open Idealize.ShloMosaic

/-- The three projections of a node's rows and the bias, added as ((x·Ws + aI·Wi) + aO·Wo) + b. -/
def mixRowK (xr ar br : Fin 128 → EReal) (Ws Wi Wo : Fin 128 → Fin 128 → EReal) (b : Fin 128 → EReal)
    (c : Fin 128) : EReal :=
  ((∑ k : Fin 128, xr k * Ws k c) + (∑ k : Fin 128, ar k * Wi k c)) + (∑ k : Fin 128, br k * Wo k c) + b c

/-- The same four terms added as ((x·Ws + b) + aI·Wi) + aO·Wo. -/
def mixRowR (xr ar br : Fin 128 → EReal) (Ws Wi Wo : Fin 128 → Fin 128 → EReal) (b : Fin 128 → EReal)
    (c : Fin 128) : EReal :=
  ((∑ k : Fin 128, xr k * Ws k c) + b c) + (∑ k : Fin 128, ar k * Wi k c) + (∑ k : Fin 128, br k * Wo k c)

/-- The two orders of addition agree: addition of extended reals is commutative and associative. -/
theorem mixRowK_eq_mixRowR (xr ar br : Fin 128 → EReal) (Ws Wi Wo : Fin 128 → Fin 128 → EReal) (b : Fin 128 → EReal) :
    mixRowK xr ar br Ws Wi Wo b = mixRowR xr ar br Ws Wi Wo b := by
  funext c
  unfold mixRowK mixRowR
  rw [add_right_comm (_ + _) _ (b c), add_right_comm _ _ (b c)]

/-- The mean of 128 numbers: their sum divided by 128 (the float 128.0). -/
def mean (h : Fin 128 → EReal) : EReal := Ideal.div (∑ c : Fin 128, h c) (Ideal.ofBits .f32 0x43000000#32)

/-- A number of the row less the row's mean. -/
def centred (h : Fin 128 → EReal) (c : Fin 128) : EReal := h c - mean h

/-- The mean square of the centred row. -/
def meanSq (h : Fin 128 → EReal) : EReal :=
  Ideal.div (∑ c : Fin 128, centred h c * centred h c) (Ideal.ofBits .f32 0x43000000#32)

/-- Column q of the normalised row, scaled by gq, shifted by bq, and the larger of that and zero. -/
def normRelu (h : Fin 128 → EReal) (gq bq : EReal) (q : Fin 128) : EReal :=
  max (centred h q * Ideal.rsqrt (meanSq h + Ideal.ofBits .f32 0x3727C5AC#32) * gq + bq) (Ideal.ofBits .f32 0x00000000#32)

open Idealize.ShloMosaic.ValueIdx in
/-- The whole layer as one function of the arrays: the three [50000, 128] node inputs, the three [128, 128] weights as
    given (entry (c, k) is the weight from input k to output c), and the bias, scale and shift vectors. Entry (r, c) of
    the result depends on row r of the node inputs only. -/
def layer (x aI aO : (⟨2, ![50000, 128]⟩ : Shape).Idx → EReal) (Ws Wi Wo : (⟨2, ![128, 128]⟩ : Shape).Idx → EReal)
    (b g be : (⟨1, ![128]⟩ : Shape).Idx → EReal) : (⟨2, ![50000, 128]⟩ : Shape).Idx → EReal := fun i =>
  normRelu (mixRowK (fun k => x (ix2 (i 0) k)) (fun k => aI (ix2 (i 0) k)) (fun k => aO (ix2 (i 0) k))
      (fun k c => Ws (ix2 c k)) (fun k c => Wi (ix2 c k)) (fun k c => Wo (ix2 c k)) (fun c => b (ix1 c)))
    (g (ix1 (i 1))) (be (ix1 (i 1))) (i 1)

end Cert.Layer

end
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Payload.lean ====
import proofs.«123231_j65807488909810_2_alg».proof.Proof.Gen.KernelIdeal.Value
import proofs.«123231_j65807488909810_2_alg».proof.Proof.Spec
import proofs.«123231_j65807488909810_2_alg».proof.Proof.LibPlainDot
import proofs.«123231_j65807488909810_2_alg».proof.Proof.LibColumn
import Idealize.ShloMosaic.Lib.ValueLayout
import Idealize.ShloMosaic.PureOps.Ideal.Laws

/-!
The kernel body's arithmetic on one block of 5000 nodes, read at an index.

The body loads a [5000, 128] block of each of the three node inputs, three [128, 128] weight blocks (already
transposed, so that entry (k, c) is the weight from input k to output c) and three [1, 128] rows. It forms the three
products row by row, adds them and the bias row, subtracts each row's mean, and multiplies by the inverse square root
of the row's mean square plus a constant, then by the scale row, adds the shift row and keeps the larger of that and
zero. Here every step is read at a block index (p, q): a product into the zero accumulator is the sum over the 128
contraction coordinates, a row reduction is the sum over the row's 128 columns, a change of float format and a
shape cast between equal shapes change nothing, and a one-row or one-column broadcast reads the row or column it
repeats. The result is the spec's normRelu of the spec's mixRowK over row p of the blocks.
-/

noncomputable section

namespace Cert.KernelIdeal.Payload

open Cert.KernelIdeal Cert.KernelIdeal.Gen Idealize.ShloMosaic Idealize.ShloMosaic.ValueIdx Cert.Layer

variable (P0 P1 P2 : FVec Ideal S5000x128 .f32) (P3 P4 P5 : FVec Ideal S128x128 .bf16) (P6 P7 P8 : FVec Ideal S1x128 .f32)

/-- The body's three products have the plain dimension numbers: rows by contraction times contraction by columns. -/
theorem dot_plain : dot_S5000x128_S128x128_S5000x128_1_0_0_1_n_n = DotDims.plain 5000 128 128 := rfl

/-- The block of pre-normalisation values: the three products into zero accumulators, added, plus the bias row. -/
def pre : FVec Ideal S5000x128 .f32 :=
  addf (addf (addf
    (matmul dot_S5000x128_S128x128_S5000x128_1_0_0_1_n_n none (truncf .bf16 P0 bitsLt_bf16_f32) (shapeCast S128x128 P3 shapeCasts_S128x128_S128x128) (constant S5000x128 .f32 0x00000000#32))
    (matmul dot_S5000x128_S128x128_S5000x128_1_0_0_1_n_n none (truncf .bf16 (shapeCast S5000x128 P1 shapeCasts_S5000x128_S5000x128) bitsLt_bf16_f32) (shapeCast S128x128 P4 shapeCasts_S128x128_S128x128) (constant S5000x128 .f32 0x00000000#32)))
    (matmul dot_S5000x128_S128x128_S5000x128_1_0_0_1_n_n none (truncf .bf16 (shapeCast S5000x128 P2 shapeCasts_S5000x128_S5000x128) bitsLt_bf16_f32) (shapeCast S128x128 P5 shapeCasts_S128x128_S128x128) (constant S5000x128 .f32 0x00000000#32)))
    (broadcastTo S5000x128 (shapeCast S1x128 P6 shapeCasts_S1x128_S1x128) broadcasts_S1x128_S5000x128)

/-- The centred block as a tree of whole-block operations: the pre-normalisation block less its row means, the
    means kept as a column and repeated across the 128 columns. -/
theorem pay2_eq : k0_pay2 P0 P1 P2 P3 P4 P5 P6 =
    subf (pre P0 P1 P2 P3 P4 P5 P6) (broadcastTo S5000x128 (divf (shapeCast S5000x1 (multiReduction .add [1] S5000 (pre P0 P1 P2 P3 P4 P5 P6) 0x00000000#32 reduces_S5000x128_S5000 (.inl rfl) rfl) shapeCasts_S5000_S5000x1) (broadcast S5000x1 (Scalar.ofBits .f32 0x43000000#32))) broadcasts_S5000x1_S5000x128) := rfl

/-- A row reduction of a [5000, 128] block, read at row p, is the sum of the row. -/
theorem rowsum_apply (src : FVec Ideal S5000x128 .f32) (p : Fin 5000) :
    multiReduction .add [1] S5000 src 0x00000000#32 reduces_S5000x128_S5000 (.inl rfl) rfl (ix1 p)
      = ∑ c : Fin 128, src (ix2 p c) := by
  refine (Ideal.multiReduction_add_single src 0x00000000#32 reduces_S5000x128_S5000 (.inl rfl) rfl (ix1 p)).trans ?_
  refine Finset.sum_congr rfl fun k _ => congrArg src (funext fun ax => ?_)
  match ax with
  | ⟨0, _⟩ => rfl
  | ⟨1, _⟩ => rfl

/-- One product of the body at (p, c): the row of the left block against the column of the right. -/
theorem prod_apply (X : FVec Ideal S5000x128 .bf16) (W : FVec Ideal S128x128 .bf16) (p : Fin 5000) (c : Fin 128) :
    matmul dot_S5000x128_S128x128_S5000x128_1_0_0_1_n_n none X W (constant S5000x128 .f32 0x00000000#32) (ix2 p c)
      = ∑ k : Fin 128, X (ix2 p k) * W (ix2 k c) :=
  PlainDot.matmul_zero_apply 5000 128 128 none X W p c

/-- The pre-normalisation block at (p, c) is the mixed row of the spec, over row p of the three input blocks. -/
theorem pre_apply (p : Fin 5000) (c : Fin 128) :
    pre P0 P1 P2 P3 P4 P5 P6 (ix2 p c)
      = mixRowK (fun k => P0 (ix2 p k)) (fun k => P1 (ix2 p k)) (fun k => P2 (ix2 p k))
          (fun k c => P3 (ix2 k c)) (fun k c => P4 (ix2 k c)) (fun k c => P5 (ix2 k c)) (fun c => P6 (ix2 (0 : Fin 1) c)) c := by
  unfold pre mixRowK
  rw [addf_apply, addf_apply, addf_apply, prod_apply, prod_apply, prod_apply, broadcastTo_1b_ab_apply]
  simp only [shapeCast_self, truncf_apply]

/-- The centred block at (p, q): the mixed row's column q less the row's mean. -/
theorem pay2_apply (p : Fin 5000) (q : Fin 128) :
    k0_pay2 (F := Ideal) P0 P1 P2 P3 P4 P5 P6 (ix2 p q)
      = centred (mixRowK (fun k => P0 (ix2 p k)) (fun k => P1 (ix2 p k)) (fun k => P2 (ix2 p k))
          (fun k c => P3 (ix2 k c)) (fun k c => P4 (ix2 k c)) (fun k c => P5 (ix2 k c)) (fun c => P6 (ix2 (0 : Fin 1) c))) q := by
  rw [pay2_eq, subf_apply, broadcastTo_a1_ab_apply, divf_apply, shapeCast_a_a1_apply, rowsum_apply, pre_apply]
  unfold centred mean
  simp only [pre_apply]
  rfl

/-- What the body leaves in the output block at (p, q): the spec's normalised, scaled, shifted and clamped row. -/
theorem E9_apply (p : Fin 5000) (q : Fin 128) :
    Value.E9 (F := Ideal) P0 P1 P2 P3 P4 P5 P6 P7 P8 (ix2 p q)
      = normRelu (mixRowK (fun k => P0 (ix2 p k)) (fun k => P1 (ix2 p k)) (fun k => P2 (ix2 p k))
          (fun k c => P3 (ix2 k c)) (fun k c => P4 (ix2 k c)) (fun k c => P5 (ix2 k c)) (fun c => P6 (ix2 (0 : Fin 1) c)))
          (P7 (ix2 (0 : Fin 1) q)) (P8 (ix2 (0 : Fin 1) q)) q := by
  have i0 : Value.ix9_0 (ix2 p q) = ix2 p q := funext fun a => Fin.ext (by
    match a with
    | ⟨0, _⟩ => rfl
    | ⟨1, _⟩ => rfl)
  have i1 : Value.ix9_1 (ix2 p q) = ix1 p := funext fun a => Fin.ext (by
    match a with
    | ⟨0, _⟩ => rfl)
  have i2 : Value.ix9_2 (ix2 p q) = ix2 (0 : Fin 1) q := funext fun a => Fin.ext (by
    match a with
    | ⟨0, _⟩ => rfl
    | ⟨1, _⟩ => rfl)
  have i3 : Value.ix9_3 (ix2 p q) = ix2 (0 : Fin 1) q := funext fun a => Fin.ext (by
    match a with
    | ⟨0, _⟩ => rfl
    | ⟨1, _⟩ => rfl)
  show max (k0_pay2 (F := Ideal) P0 P1 P2 P3 P4 P5 P6 (Value.ix9_0 (ix2 p q)) * Ideal.rsqrt (Ideal.div (multiReduction .add [1] S5000 (mulf (k0_pay2 (F := Ideal) P0 P1 P2 P3 P4 P5 P6) (k0_pay2 (F := Ideal) P0 P1 P2 P3 P4 P5 P6)) 0x00000000#32 reduces_S5000x128_S5000 (.inl rfl) rfl (Value.ix9_1 (ix2 p q))) (Ideal.ofBits .f32 0x43000000#32) + Ideal.ofBits .f32 0x3727C5AC#32) * P7 (Value.ix9_2 (ix2 p q)) + P8 (Value.ix9_3 (ix2 p q))) (Ideal.ofBits .f32 0x00000000#32) = _
  rw [i0, i1, i2, i3, rowsum_apply, pay2_apply]
  unfold normRelu meanSq
  simp only [mulf_apply, pay2_apply]

end Cert.KernelIdeal.Payload

end
-- ==== Proof.Whole.lean ====
import proofs.«123231_j65807488909810_2_alg».proof.Proof.Gen.KernelIdeal.Value
import proofs.«123231_j65807488909810_2_alg».proof.Proof.Payload

/-!
From blocks to the array: the kernel's output array after the run.

The grid has ten points; point t works on rows 5000 t .. 5000 t + 4999 of the three [50000, 128] node arrays and
of the output, and on the whole of the three weight arrays and the three [1, 128] rows (their block index is zero
on both axes at every point; all of this is decided over the ten points). So row p of point t's block is row
5000 t + p of the array, and what point t writes back is the layer of the spec read over exactly those rows: the
layer's entry (r, c) depends on row r of the node arrays only. The ten output blocks tile the array (row r is in
the block of point r / 5000), so after the run the output array is the layer over the arrays as the region finds
them.
-/

noncomputable section

namespace Cert.KernelIdeal.Whole

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-- The body's loads and its store start at offset zero on both axes. -/
theorem hz : (![0, 0] : Fin 2 → Nat) = fun _ => 0 := funext fun a => by fin_cases a <;> rfl

/-- The layer over the nine arrays as the region finds them. -/
def staged (A0 A1 A2 : S50000x128.Idx → EReal) (A3 A4 A5 : S128x128.Idx → EReal) (A6 A7 A8 : S1x128.Idx → EReal) :
    S50000x128.Idx → EReal := fun i =>
  normRelu (mixRowK (fun k => A0 (ix2 (i 0) k)) (fun k => A1 (ix2 (i 0) k)) (fun k => A2 (ix2 (i 0) k))
      (fun k c => A3 (ix2 k c)) (fun k c => A4 (ix2 k c)) (fun k c => A5 (ix2 k c)) (fun c => A6 (ix2 (0 : Fin 1) c)))
    (A7 (ix2 (0 : Fin 1) (i 1))) (A8 (ix2 (0 : Fin 1) (i 1))) (i 1)

/-- The block index of every window at every grid point, decided over the ten points: the three node inputs and the
    output move with the point along the rows, every other window stays at block (0, 0). -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row p of grid point t's block is row t * 5000 + p of the array. -/
def rowOf (t : Fin cfg0.N) (p : Fin 5000) : Fin 50000 :=
  ⟨t.val * 5000 + p.val, by have := t.isLt; have hN : cfg0.N = 10 := N_0; have := p.isLt; omega⟩

/-- Where entry (p, q) of point t's output block sits in the output array. -/
theorem blk9 (t : Fin cfg0.N) (p : Fin 5000) (q : Fin 128) :
    ((cfg0.win 9).blk t).view.emb (ix2 p q) = (ix2 (rowOf t p) q : S50000x128.Idx) := by
  obtain ⟨e0, e1, -⟩ := idx_facts t
  funext a; apply Fin.ext
  match a with
  | ⟨0, _⟩ => show win0_9.index t (0 : Fin 2) * 5000 + 1 * p.val = t.val * 5000 + p.val; omega
  | ⟨1, _⟩ => show win0_9.index t (1 : Fin 2) * 128 + 1 * q.val = q.val; omega

/-! Reading a window's block at a point off any contents f of its array: a row block reads row 5000 t + p, a weight
    block and a one-row block read the array itself. -/

theorem rd0 (t : Fin cfg0.N) (f : ((cfg0.win 0).blk t).view.ty.Contents (Elt Ideal)) (p : Fin 5000) (k : Fin 128) :
    ((cfg0.win 0).blk t).view.read (Elt Ideal) f (ix2 p k) = f (ix2 (rowOf t p) k) := by
  obtain ⟨-, -, e0, e1, -⟩ := idx_facts t
  show f (((cfg0.win 0).blk t).view.emb (ix2 p k)) = f (ix2 (rowOf t p) k)
  refine congrArg f (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem rd1 (t : Fin cfg0.N) (f : ((cfg0.win 1).blk t).view.ty.Contents (Elt Ideal)) (p : Fin 5000) (k : Fin 128) :
    ((cfg0.win 1).blk t).view.read (Elt Ideal) f (ix2 p k) = f (ix2 (rowOf t p) k) := by
  obtain ⟨-, -, -, -, e0, e1, -⟩ := idx_facts t
  show f (((cfg0.win 1).blk t).view.emb (ix2 p k)) = f (ix2 (rowOf t p) k)
  refine congrArg f (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

theorem rd2 (t : Fin cfg0.N) (f : ((cfg0.win 2).blk t).view.ty.Contents (Elt Ideal)) (p : Fin 5000) (k : Fin 128) :
    ((cfg0.win 2).blk t).view.read (Elt Ideal) f (ix2 p k) = f (ix2 (rowOf t p) k) := by
  obtain ⟨-, -, -, -, -, -, e0, e1, -⟩ := idx_facts t
  show f (((cfg0.win 2).blk t).view.emb (ix2 p k)) = f (ix2 (rowOf t p) k)
  refine congrArg f (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega

theorem rd3 (t : Fin cfg0.N) (f : ((cfg0.win 3).blk t).view.ty.Contents (Elt Ideal)) (k q : Fin 128) :
    ((cfg0.win 3).blk t).view.read (Elt Ideal) f (ix2 k q) = f (ix2 k q) := by
  obtain ⟨-, -, -, -, -, -, -, -, e0, e1, -⟩ := idx_facts t
  show f (((cfg0.win 3).blk t).view.emb (ix2 k q)) = f (ix2 k q)
  refine congrArg f (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem rd4 (t : Fin cfg0.N) (f : ((cfg0.win 4).blk t).view.ty.Contents (Elt Ideal)) (k q : Fin 128) :
    ((cfg0.win 4).blk t).view.read (Elt Ideal) f (ix2 k q) = f (ix2 k q) := by
  obtain ⟨-, -, -, -, -, -, -, -, -, -, e0, e1, -⟩ := idx_facts t
  show f (((cfg0.win 4).blk t).view.emb (ix2 k q)) = f (ix2 k q)
  refine congrArg f (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem rd5 (t : Fin cfg0.N) (f : ((cfg0.win 5).blk t).view.ty.Contents (Elt Ideal)) (k q : Fin 128) :
    ((cfg0.win 5).blk t).view.read (Elt Ideal) f (ix2 k q) = f (ix2 k q) := by
  obtain ⟨-, -, -, -, -, -, -, -, -, -, -, -, e0, e1, -⟩ := idx_facts t
  show f (((cfg0.win 5).blk t).view.emb (ix2 k q)) = f (ix2 k q)
  refine congrArg f (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem rd6 (t : Fin cfg0.N) (f : ((cfg0.win 6).blk t).view.ty.Contents (Elt Ideal)) (q : Fin 128) :
    ((cfg0.win 6).blk t).view.read (Elt Ideal) f (ix2 (0 : Fin 1) q) = f (ix2 (0 : Fin 1) q) := by
  obtain ⟨-, -, -, -, -, -, -, -, -, -, -, -, -, -, e0, e1, -⟩ := idx_facts t
  show f (((cfg0.win 6).blk t).view.emb (ix2 (0 : Fin 1) q)) = f (ix2 (0 : Fin 1) q)
  refine congrArg f (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

theorem rd7 (t : Fin cfg0.N) (f : ((cfg0.win 7).blk t).view.ty.Contents (Elt Ideal)) (q : Fin 128) :
    ((cfg0.win 7).blk t).view.read (Elt Ideal) f (ix2 (0 : Fin 1) q) = f (ix2 (0 : Fin 1) q) := by
  obtain ⟨-, -, -, -, -, -, -, -, -, -, -, -, -, -, -, -, e0, e1, -⟩ := idx_facts t
  show f (((cfg0.win 7).blk t).view.emb (ix2 (0 : Fin 1) q)) = f (ix2 (0 : Fin 1) q)
  refine congrArg f (funext fun a => Fin.ext ?_)
  match a with
  | ⟨0, _⟩ => show win0_7.index t (0 : Fin 2) * 1 + 1 * 0 = 0; omega
  | ⟨1, _⟩ => show win0_7.index t (1 : Fin 2) * 128 + 1 * q.val = q.val; omega

theorem rd8 (t : Fin cfg0.N) (f : ((cfg0.win 8).blk t).view.ty.Contents (Elt Ideal)) (q : Fin 128) :
    ((cfg0.win 8).blk t).view.read (Elt Ideal) f (ix2 (0 : Fin 1) q) = f (ix2 (0 : Fin 1) q) := by
  obtain ⟨-, -, -, -, -, -, -, -, -, -, -, -, -, -, -, -, -, -, e0, e1⟩ := idx_facts t
  show f (((cfg0.win 8).blk t).view.emb (ix2 (0 : Fin 1) q)) = f (ix2 (0 : Fin 1) q)
  refine congrArg f (funext fun a => Fin.ext ?_)
  match a with
  | ⟨0, _⟩ => show win0_8.index t (0 : Fin 2) * 1 + 1 * 0 = 0; omega
  | ⟨1, _⟩ => show win0_8.index t (1 : Fin 2) * 128 + 1 * q.val = q.val; omega

/-- Two functions on a [5000, 128] block are equal when they agree at every (p, q). -/
theorem ext_block {α : Type} (f g : S5000x128.Idx → α) (h : ∀ (p : Fin 5000) (q : Fin 128), f (ix2 p q) = g (ix2 p q)) :
    f = g := funext fun j => by rw [eq_ix2 j]; exact h _ _

/-- What the body leaves in the output block, at (p, q), over any nine blocks. -/
theorem out_at (X0 X1 X2 : FVec Ideal S5000x128 .f32) (X3 X4 X5 : FVec Ideal S128x128 .bf16) (X6 X7 X8 : FVec Ideal S1x128 .f32)
    (p : Fin 5000) (q : Fin 128) :
    out0_9 (F := Ideal) X0 X1 X2 X3 X4 X5 X6 X7 X8 (ix2 p q)
      = normRelu (mixRowK (fun k => X0 (ix2 p k)) (fun k => X1 (ix2 p k)) (fun k => X2 (ix2 p k))
          (fun k c => X3 (ix2 k c)) (fun k c => X4 (ix2 k c)) (fun k c => X5 (ix2 k c)) (fun c => X6 (ix2 (0 : Fin 1) c)))
          (X7 (ix2 (0 : Fin 1) q)) (X8 (ix2 (0 : Fin 1) q)) q := by
  unfold out0_9
  rw [Value.canon9_eq]
  simp only [View.ld_unit_zero (S := S5000x128) hz, View.ld_unit_zero (S := S128x128) hz, View.ld_unit_zero (S := S1x128) hz]
  exact Payload.E9_apply X0 X1 X2 X3 X4 X5 X6 X7 X8 p q

/-! The same readings for the blocks the region stages, off the arrays as the region finds them. -/

theorem iblk_0 (c : Dev nD) (t : Fin cfg0.N) (p : Fin 5000) (k : Fin 128) :
    iblk m c 0 t (ix2 p k) = V m c (Pipeline.arrRef spec0 0) (ix2 (rowOf t p) k) := rd0 t _ p k

theorem iblk_1 (c : Dev nD) (t : Fin cfg0.N) (p : Fin 5000) (k : Fin 128) :
    iblk m c 1 t (ix2 p k) = V m c (Pipeline.arrRef spec0 1) (ix2 (rowOf t p) k) := rd1 t _ p k

theorem iblk_2 (c : Dev nD) (t : Fin cfg0.N) (p : Fin 5000) (k : Fin 128) :
    iblk m c 2 t (ix2 p k) = V m c (Pipeline.arrRef spec0 2) (ix2 (rowOf t p) k) := rd2 t _ p k

theorem iblk_3 (c : Dev nD) (t : Fin cfg0.N) (k q : Fin 128) :
    iblk m c 3 t (ix2 k q) = V m c (Pipeline.arrRef spec0 3) (ix2 k q) := rd3 t _ k q

theorem iblk_4 (c : Dev nD) (t : Fin cfg0.N) (k q : Fin 128) :
    iblk m c 4 t (ix2 k q) = V m c (Pipeline.arrRef spec0 4) (ix2 k q) := rd4 t _ k q

theorem iblk_5 (c : Dev nD) (t : Fin cfg0.N) (k q : Fin 128) :
    iblk m c 5 t (ix2 k q) = V m c (Pipeline.arrRef spec0 5) (ix2 k q) := rd5 t _ k q

theorem iblk_6 (c : Dev nD) (t : Fin cfg0.N) (q : Fin 128) :
    iblk m c 6 t (ix2 (0 : Fin 1) q) = V m c (Pipeline.arrRef spec0 6) (ix2 (0 : Fin 1) q) := rd6 t _ q

theorem iblk_7 (c : Dev nD) (t : Fin cfg0.N) (q : Fin 128) :
    iblk m c 7 t (ix2 (0 : Fin 1) q) = V m c (Pipeline.arrRef spec0 7) (ix2 (0 : Fin 1) q) := rd7 t _ q

theorem iblk_8 (c : Dev nD) (t : Fin cfg0.N) (q : Fin 128) :
    iblk m c 8 t (ix2 (0 : Fin 1) q) = V m c (Pipeline.arrRef spec0 8) (ix2 (0 : Fin 1) q) := rd8 t _ q

/-- The layer over the nine arrays as the region finds them. -/
def stagedV (c : Dev nD) : S50000x128.Idx → EReal :=
  staged (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8))

/-- What grid point t writes back is block t of the layer over the arrays as the region finds them. -/
theorem flushed_eq (c : Dev nD) (t : Fin cfg0.N) :
    (dats m 0 c).flushed 9 t = ((cfg0.win 9).blk t).view.read (Elt Ideal) (stagedV m c) := by
  rw [Value.flushed9]
  refine ext_block _ _ (fun p q => ?_)
  show out0_9 (iblk m c 0 t) (iblk m c 1 t) (iblk m c 2 t) (iblk m c 3 t) (iblk m c 4 t) (iblk m c 5 t) (iblk m c 6 t) (iblk m c 7 t) (iblk m c 8 t) (ix2 p q) = stagedV m c (((cfg0.win 9).blk t).view.emb (ix2 p q))
  rw [blk9 t p q]
  refine (out_at (iblk m c 0 t) (iblk m c 1 t) (iblk m c 2 t) (iblk m c 3 t) (iblk m c 4 t) (iblk m c 5 t) (iblk m c 6 t) (iblk m c 7 t) (iblk m c 8 t) p q).trans ?_
  simp only [iblk_0, iblk_1, iblk_2, iblk_3, iblk_4, iblk_5, iblk_6, iblk_7, iblk_8]
  rfl

/-- An index of the array is in grid point t's block iff each coordinate is in the block's range on its axis. -/
theorem mem_blk (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v35).slice (win0_9.rect t)).set ↔ _
  rw [View.set_slice_whole, Rect.mem_set_unit]
  exact Iff.rfl

/-- Every row r of the array lies in the block of grid point r / 5000: the ten blocks tile the array. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have ht : (i 0).val / 5000 < cfg0.N := by have hN := N_0; show _ < grid0.N; omega
  obtain ⟨e0, e1, -⟩ := idx_facts ⟨(i 0).val / 5000, ht⟩
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 128 ≤ (i 1).val ∧ (i 1).val < win0_9.index ⟨(i 0).val / 5000, ht⟩ (1 : Fin 2) * 128 + 128
    rw [e1]
    omega

/-- So after the run the output array is the layer over the arrays as the region finds them. -/
theorem final (c : Dev nD) : (dats m 0 c).arrAt 9 cfg0.N = stagedV m c :=
  (dats m 0 c).arrAt_eq_of_cover 9 (stagedV m c) (fun t _ => flushed_eq m c t) cover

end Cert.KernelIdeal.Whole

end
-- ==== Proof.HostSide.lean ====
import proofs.«123231_j65807488909810_2_alg».proof.Proof.Gen.KernelIdeal.Frame
import proofs.«123231_j65807488909810_2_alg».proof.Proof.Gen.ReferenceIdeal.Read
import Idealize.ShloMosaic.Lib.StableHlo.Run

/-!
The arrays the region finds, as functions of the program's arguments.

Before the region the kernel's program computes, on the host, the two aggregated arrays (for each edge the source
node's row scaled by the edge's value, added into the target node's row of a zero array), the three weights
transposed (their change of float format is the identity on extended reals) and the bias, scale and shift vectors
viewed as one-row matrices. Each is read here off the host operations as one term of the arguments. The two
aggregated arrays are, operation for operation, the terms the reference computes, and are left unopened.
-/

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The three weight arrays as the region finds them: the argument transposed (the change of float format is the
    identity on extended reals). -/
theorem w_self (c : Dev nD) : (V m c main_v27 : S128x128.Idx → EReal)
    = truncf (F := Ideal) .bf16 (transpose S128x128 [1, 0] ((m ((c : Thread nD τ).loc main_arg7)) : S128x128.Idx → EReal) transposes_S128x128_S128x128_1_0) bitsLt_bf16_f32 := by
  dsimp only [Gen.V, Gen.hostOps0]
  after_results_simp

theorem w_in (c : Dev nD) : (V m c main_v29 : S128x128.Idx → EReal)
    = truncf (F := Ideal) .bf16 (transpose S128x128 [1, 0] ((m ((c : Thread nD τ).loc main_arg9)) : S128x128.Idx → EReal) transposes_S128x128_S128x128_1_0) bitsLt_bf16_f32 := by
  dsimp only [Gen.V, Gen.hostOps0]
  after_results_simp

theorem w_out (c : Dev nD) : (V m c main_v31 : S128x128.Idx → EReal)
    = truncf (F := Ideal) .bf16 (transpose S128x128 [1, 0] ((m ((c : Thread nD τ).loc main_arg10)) : S128x128.Idx → EReal) transposes_S128x128_S128x128_1_0) bitsLt_bf16_f32 := by
  dsimp only [Gen.V, Gen.hostOps0]
  after_results_simp

/-- The bias, scale and shift rows as the region finds them: the argument vector viewed as one row. -/
theorem row_b (c : Dev nD) : (V m c main_v32 : S1x128.Idx → EReal)
    = shapeCast S1x128 ((m ((c : Thread nD τ).loc main_arg8)) : S128.Idx → EReal) shapeCasts_S128_S1x128 := by
  dsimp only [Gen.V, Gen.hostOps0]
  after_results_simp
  rfl

theorem row_g (c : Dev nD) : (V m c main_v33 : S1x128.Idx → EReal)
    = shapeCast S1x128 ((m ((c : Thread nD τ).loc main_arg11)) : S128.Idx → EReal) shapeCasts_S128_S1x128 := by
  dsimp only [Gen.V, Gen.hostOps0]
  after_results_simp
  rfl

theorem row_be (c : Dev nD) : (V m c main_v34 : S1x128.Idx → EReal)
    = shapeCast S1x128 ((m ((c : Thread nD τ).loc main_arg12)) : S128.Idx → EReal) shapeCasts_S128_S1x128 := by
  dsimp only [Gen.V, Gen.hostOps0]
  after_results_simp
  rfl

/-- The two aggregated arrays as the region finds them are the reference's own terms of the arguments: both programs
    compute them by the same operations (a gather of rows, a scaling, a scatter-add into zeros). -/
theorem agg_in (c : Dev nD) : (V m c main_v12 : S50000x128.Idx → EReal)
    = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  dsimp only [Gen.V, Gen.hostOps0]
  after_results_simp
  rfl

theorem agg_out (c : Dev nD) : (V m c main_v25 : S50000x128.Idx → EReal)
    = Cert.ReferenceIdeal.Read.val_main_v25 (F := Ideal) (m ((c : Thread nD τ).loc main_arg0)) (m ((c : Thread nD τ).loc main_arg4)) (m ((c : Thread nD τ).loc main_arg5)) (m ((c : Thread nD τ).loc main_arg6)) := by
  dsimp only [Gen.V, Gen.hostOps0]
  after_results_simp
  rfl

end Cert.KernelIdeal.HostSide

end
-- ==== Proof.KernelRun.lean ====
import proofs.«123231_j65807488909810_2_alg».proof.Proof.Gen.KernelIdeal.Value
import proofs.«123231_j65807488909810_2_alg».proof.Proof.Whole
import proofs.«123231_j65807488909810_2_alg».proof.Proof.HostSide
import Idealize.ShloMosaic.Lib.ValueLayout

/-!
The kernel's program, run: its result array is the layer of its arguments.

The output array after the run is the layer over the nine arrays the region finds; those arrays are the arguments'
data entry for entry (the node features as given, the two aggregated arrays as the host computed them, each weight
at (k, c) the given weight at (c, k), each one-row matrix at (0, c) the given vector at c); so the output array is
the layer of the arguments themselves.
-/

noncomputable section

namespace Cert.KernelIdeal.KernelRun

open Cert.KernelIdeal Cert.KernelIdeal.Gen Idealize.ShloMosaic Idealize.ShloMosaic.TcCoe Idealize.SL.Sem
open Idealize.ShloMosaic.ValueIdx Cert.Layer

variable (m : (ℓ : Loc nD τ sig) → Buf (Elt Ideal) ℓ) (ρ : Dev nD → PrngReg)

/-- The layer of the program's arguments: what both programs end holding. -/
def result (c : Dev nD) : S50000x128.Idx → EReal :=
  layer (m ((c : Thread nD τ).loc main_arg0))
    (Cert.ReferenceIdeal.Read.val_main_v12 (F := Ideal) (m ((c : Thread nD τ).loc main_arg0)) (m ((c : Thread nD τ).loc main_arg1)) (m ((c : Thread nD τ).loc main_arg2)) (m ((c : Thread nD τ).loc main_arg3)))
    (Cert.ReferenceIdeal.Read.val_main_v25 (F := Ideal) (m ((c : Thread nD τ).loc main_arg0)) (m ((c : Thread nD τ).loc main_arg4)) (m ((c : Thread nD τ).loc main_arg5)) (m ((c : Thread nD τ).loc main_arg6)))
    (m ((c : Thread nD τ).loc main_arg7)) (m ((c : Thread nD τ).loc main_arg9)) (m ((c : Thread nD τ).loc main_arg10)) (m ((c : Thread nD τ).loc main_arg8)) (m ((c : Thread nD τ).loc main_arg11)) (m ((c : Thread nD τ).loc main_arg12))

/-- The layer over nine arrays that are, entry for entry, the arguments' data (the weights transposed, the vectors as
    one-row matrices) is the layer of the arguments. -/
theorem staged_eq_layer (A0 A1 A2 : S50000x128.Idx → EReal) (A3 A4 A5 : S128x128.Idx → EReal) (A6 A7 A8 : S1x128.Idx → EReal)
    (x aI aO : S50000x128.Idx → EReal) (Ws Wi Wo : S128x128.Idx → EReal) (b g be : S128.Idx → EReal)
    (h0 : A0 = x) (h1 : A1 = aI) (h2 : A2 = aO)
    (h3 : ∀ k q : Fin 128, A3 (ix2 k q) = Ws (ix2 q k)) (h4 : ∀ k q : Fin 128, A4 (ix2 k q) = Wi (ix2 q k))
    (h5 : ∀ k q : Fin 128, A5 (ix2 k q) = Wo (ix2 q k))
    (h6 : ∀ q : Fin 128, A6 (ix2 (0 : Fin 1) q) = b (ix1 q)) (h7 : ∀ q : Fin 128, A7 (ix2 (0 : Fin 1) q) = g (ix1 q))
    (h8 : ∀ q : Fin 128, A8 (ix2 (0 : Fin 1) q) = be (ix1 q)) :
    Whole.staged A0 A1 A2 A3 A4 A5 A6 A7 A8 = layer x aI aO Ws Wi Wo b g be := by
  subst h0 h1 h2
  funext i
  unfold Whole.staged layer
  simp only [h3, h4, h5, h6]
  rw [h7 (i 1), h8 (i 1)]

/-- The layer over the arrays as the region finds them is the layer of the arguments. -/
theorem stagedV_eq (c : Dev nD) : Whole.stagedV m c = result m c :=
  staged_eq_layer _ _ _ _ _ _ _ _ _ _ _ _ _ _ _ _ _ _
    (V_main_arg0 m c) (HostSide.agg_in m c) (HostSide.agg_out m c)
    (fun k q => (congrFun (HostSide.w_self m c) (ix2 k q)).trans (transpose_ix2_apply _ _ k q))
    (fun k q => (congrFun (HostSide.w_in m c) (ix2 k q)).trans (transpose_ix2_apply _ _ k q))
    (fun k q => (congrFun (HostSide.w_out m c) (ix2 k q)).trans (transpose_ix2_apply _ _ k q))
    (fun q => (congrFun (HostSide.row_b m c) (ix2 (0 : Fin 1) q)).trans (shapeCast_a_1a_apply _ _ 0 q))
    (fun q => (congrFun (HostSide.row_g m c) (ix2 (0 : Fin 1) q)).trans (shapeCast_a_1a_apply _ _ 0 q))
    (fun q => (congrFun (HostSide.row_be m c) (ix2 (0 : Fin 1) q)).trans (shapeCast_a_1a_apply _ _ 0 q))

/-- Every weakly fair execution of the kernel's program ends with the result array at the layer of the arguments,
    the arguments unchanged. -/
theorem run : θ_run defs (onTc (τ := τ) (main (F := Ideal))) ⟨m, fun _ => 0, ρ⟩ fun r => ∀ c : Dev nD,
      r.2.mem ((c : Thread nD τ).loc main_v35) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((Whole.final m c).trans (stagedV_eq m c)), (h c).2⟩)
    (Value.run_blocks m ρ)

end Cert.KernelIdeal.KernelRun

end
-- ==== Proof.RefValue.lean ====
import proofs.«123231_j65807488909810_2_alg».proof.Proof.Gen.ReferenceIdeal.Read
import proofs.«123231_j65807488909810_2_alg».proof.Proof.Spec

/-!
The reference program read at an index.

Its result is a chain of whole-array operations; each is read here at (r, c), or at row r for the per-row columns:
the three products as sums over the 128 contraction coordinates (the weights transposed first, so that the sum runs
over the weight's second coordinate), the bias broadcast along the rows, the row mean as the row's sum over 128
(the sum starts from zero), the centred array, its mean square, the inverse square root, the scale and the shift
broadcast along the rows, and the comparison with zero. The two aggregated arrays (a scatter-add of gathered rows)
are carried as they stand, as functions of the arguments: the kernel's program computes them by the same operations,
so they are never opened. The result is the spec's layer, in the reference's order of addition, which is the
kernel's order by commutativity and associativity.
-/

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.Layer

variable (x0 : (⟨S50000x128, .f32⟩ : BufTy).Contents (Elt Ideal)) (x1 x2 : (⟨S600000, .i32⟩ : BufTy).Contents (Elt Ideal))
  (x3 : (⟨S600000, .f32⟩ : BufTy).Contents (Elt Ideal)) (x4 x5 : (⟨S600000, .i32⟩ : BufTy).Contents (Elt Ideal))
  (x6 : (⟨S600000, .f32⟩ : BufTy).Contents (Elt Ideal)) (x7 : (⟨S128x128, .f32⟩ : BufTy).Contents (Elt Ideal))
  (x8 : (⟨S128, .f32⟩ : BufTy).Contents (Elt Ideal)) (x9 x10 : (⟨S128x128, .f32⟩ : BufTy).Contents (Elt Ideal))
  (x11 x12 : (⟨S128, .f32⟩ : BufTy).Contents (Elt Ideal))

/-- The reference's pre-normalisation array at (r, c): the spec's mixed row, in the reference's order of addition. -/
theorem pre_apply (r : Fin 50000) (c : Fin 128) :
    val_main_v36 (F := Ideal) x0 x1 x2 x3 x4 x5 x6 x7 x8 x9 x10 (ix2 r c) = mixRowR (fun k => x0 (ix2 r k)) (fun k => val_main_v12 (F := Ideal) x0 x1 x2 x3 (ix2 r k)) (fun k => val_main_v25 (F := Ideal) x0 x4 x5 x6 (ix2 r k)) (fun k c => x7 (ix2 c k)) (fun k c => x9 (ix2 c k)) (fun k c => x10 (ix2 c k)) (fun c => x8 (ix1 c)) c := by
  have el1 : ∀ k : Fin 128, lidx_main_v27 (ix2 r c) k = ix2 r k := fun k => funext fun a => Fin.ext (by
    match a with
    | ⟨0, _⟩ => rfl
    | ⟨1, _⟩ => rfl)
  have er1 : ∀ k : Fin 128, idx_main_v26 (ridx_main_v27 (ix2 r c) k) = ix2 c k := fun k => funext fun a => Fin.ext (by
    match a with
    | ⟨0, _⟩ => rfl
    | ⟨1, _⟩ => rfl)
  have el2 : ∀ k : Fin 128, lidx_main_v32 (ix2 r c) k = ix2 r k := fun k => funext fun a => Fin.ext (by
    match a with
    | ⟨0, _⟩ => rfl
    | ⟨1, _⟩ => rfl)
  have er2 : ∀ k : Fin 128, idx_main_v31 (ridx_main_v32 (ix2 r c) k) = ix2 c k := fun k => funext fun a => Fin.ext (by
    match a with
    | ⟨0, _⟩ => rfl
    | ⟨1, _⟩ => rfl)
  have el3 : ∀ k : Fin 128, lidx_main_v35 (ix2 r c) k = ix2 r k := fun k => funext fun a => Fin.ext (by
    match a with
    | ⟨0, _⟩ => rfl
    | ⟨1, _⟩ => rfl)
  have er3 : ∀ k : Fin 128, idx_main_v34 (ridx_main_v35 (ix2 r c) k) = ix2 c k := fun k => funext fun a => Fin.ext (by
    match a with
    | ⟨0, _⟩ => rfl
    | ⟨1, _⟩ => rfl)
  have eb : idx_main_v28 (idx_main_v29 (ix2 r c)) = ix1 c := funext fun a => Fin.ext (by
    match a with
    | ⟨0, _⟩ => rfl)
  rw [val_main_v36_apply, val_main_v33_apply, val_main_v30_apply, val_main_v27_apply, val_main_v29_apply, val_main_v28_apply,
    val_main_v32_apply, val_main_v35_apply]
  simp only [val_main_v26_apply, val_main_v31_apply, val_main_v34_apply, el1, er1, el2, er2, el3, er3, eb]
  rfl

/-- The reference's per-row mean, kept as a column. -/
theorem mean_apply (r : Fin 50000) :
    val_main_v40 (F := Ideal) x0 x1 x2 x3 x4 x5 x6 x7 x8 x9 x10 (ix2 r (0 : Fin 1)) = mean (mixRowR (fun k => x0 (ix2 r k)) (fun k => val_main_v12 (F := Ideal) x0 x1 x2 x3 (ix2 r k)) (fun k => val_main_v25 (F := Ideal) x0 x4 x5 x6 (ix2 r k)) (fun k c => x7 (ix2 c k)) (fun k c => x9 (ix2 c k)) (fun k c => x10 (ix2 c k)) (fun c => x8 (ix1 c))) := by
  have e1 : idx_main_v38 (ix2 r (0 : Fin 1)) = ix1 r := funext fun a => Fin.ext (by
    match a with
    | ⟨0, _⟩ => rfl)
  have e2 : ∀ k : Fin 128, idx_main_v37 (ix1 r) k = ix2 r k := fun k => funext fun a => Fin.ext (by
    match a with
    | ⟨0, _⟩ => rfl
    | ⟨1, _⟩ => rfl)
  rw [val_main_v40_apply, val_main_v38_apply, e1, val_main_v37_apply, val_main_v39_apply, val_main_cst_5_apply,
    val_main_cst_4_apply]
  simp only [e2, pre_apply]
  unfold mean
  rw [Ideal.hostDivf_def, Ideal.ofBits_def, Ideal.ofBits_def, Ideal.ofBits_zero_f32, zero_add]

/-- The reference's centred array (it is computed twice, for the variance and for the output). -/
theorem centred_apply (r : Fin 50000) (c : Fin 128) :
    val_main_v42 (F := Ideal) x0 x1 x2 x3 x4 x5 x6 x7 x8 x9 x10 (ix2 r c) = centred (mixRowR (fun k => x0 (ix2 r k)) (fun k => val_main_v12 (F := Ideal) x0 x1 x2 x3 (ix2 r k)) (fun k => val_main_v25 (F := Ideal) x0 x4 x5 x6 (ix2 r k)) (fun k c => x7 (ix2 c k)) (fun k c => x9 (ix2 c k)) (fun k c => x10 (ix2 c k)) (fun c => x8 (ix1 c))) c := by
  have e : idx_main_v41 (ix2 r c) = ix2 r (0 : Fin 1) := funext fun a => Fin.ext (by
    match a with
    | ⟨0, _⟩ => rfl
    | ⟨1, _⟩ => rfl)
  rw [val_main_v42_apply, val_main_v41_apply, e, mean_apply, pre_apply]
  rfl

theorem centred_apply' (r : Fin 50000) (c : Fin 128) :
    val_main_v49 (F := Ideal) x0 x1 x2 x3 x4 x5 x6 x7 x8 x9 x10 (ix2 r c) = centred (mixRowR (fun k => x0 (ix2 r k)) (fun k => val_main_v12 (F := Ideal) x0 x1 x2 x3 (ix2 r k)) (fun k => val_main_v25 (F := Ideal) x0 x4 x5 x6 (ix2 r k)) (fun k c => x7 (ix2 c k)) (fun k c => x9 (ix2 c k)) (fun k c => x10 (ix2 c k)) (fun c => x8 (ix1 c))) c := by
  have e : idx_main_v48 (ix2 r c) = ix2 r (0 : Fin 1) := funext fun a => Fin.ext (by
    match a with
    | ⟨0, _⟩ => rfl
    | ⟨1, _⟩ => rfl)
  rw [val_main_v49_apply, val_main_v48_apply, e, mean_apply, pre_apply]
  rfl

/-- The reference's per-row mean square of the centred array, kept as a column. -/
theorem meanSq_apply (r : Fin 50000) :
    val_main_v47 (F := Ideal) x0 x1 x2 x3 x4 x5 x6 x7 x8 x9 x10 (ix2 r (0 : Fin 1)) = meanSq (mixRowR (fun k => x0 (ix2 r k)) (fun k => val_main_v12 (F := Ideal) x0 x1 x2 x3 (ix2 r k)) (fun k => val_main_v25 (F := Ideal) x0 x4 x5 x6 (ix2 r k)) (fun k c => x7 (ix2 c k)) (fun k c => x9 (ix2 c k)) (fun k c => x10 (ix2 c k)) (fun c => x8 (ix1 c))) := by
  have e1 : idx_main_v45 (ix2 r (0 : Fin 1)) = ix1 r := funext fun a => Fin.ext (by
    match a with
    | ⟨0, _⟩ => rfl)
  have e2 : ∀ k : Fin 128, idx_main_v44 (ix1 r) k = ix2 r k := fun k => funext fun a => Fin.ext (by
    match a with
    | ⟨0, _⟩ => rfl
    | ⟨1, _⟩ => rfl)
  rw [val_main_v47_apply, val_main_v45_apply, e1, val_main_v44_apply, val_main_v46_apply, val_main_cst_7_apply,
    val_main_cst_6_apply]
  simp only [e2, val_main_v43_apply, centred_apply]
  unfold meanSq
  rw [Ideal.hostDivf_def, Ideal.ofBits_def, Ideal.ofBits_def, Ideal.ofBits_zero_f32, zero_add]
  rfl

/-- The reference's result at (r, c): the spec's normalised, scaled, shifted and clamped row. -/
theorem out_apply (r : Fin 50000) (c : Fin 128) :
    val_main_v61 (F := Ideal) x0 x1 x2 x3 x4 x5 x6 x7 x8 x9 x10 x11 x12 (ix2 r c) = normRelu (mixRowR (fun k => x0 (ix2 r k)) (fun k => val_main_v12 (F := Ideal) x0 x1 x2 x3 (ix2 r k)) (fun k => val_main_v25 (F := Ideal) x0 x4 x5 x6 (ix2 r k)) (fun k c => x7 (ix2 c k)) (fun k c => x9 (ix2 c k)) (fun k c => x10 (ix2 c k)) (fun c => x8 (ix1 c))) (x11 (ix1 c)) (x12 (ix1 c)) c := by
  have e53 : idx_main_v53 (ix2 r c) = ix2 r (0 : Fin 1) := funext fun a => Fin.ext (by
    match a with
    | ⟨0, _⟩ => rfl
    | ⟨1, _⟩ => rfl)
  have e56 : idx_main_v55 (idx_main_v56 (ix2 r c)) = ix1 c := funext fun a => Fin.ext (by
    match a with
    | ⟨0, _⟩ => rfl)
  have e59 : idx_main_v58 (idx_main_v59 (ix2 r c)) = ix1 c := funext fun a => Fin.ext (by
    match a with
    | ⟨0, _⟩ => rfl)
  rw [val_main_v61_apply, val_main_v60_apply, val_main_v57_apply, val_main_v54_apply, centred_apply', val_main_v53_apply, e53,
    val_main_v52_apply, val_main_v51_apply, meanSq_apply, val_main_v50_apply, val_main_cst_8_apply, val_main_v56_apply,
    val_main_v55_apply, e56, val_main_v59_apply, val_main_v58_apply, e59, val_main_call0_v0_apply, val_main_call0_cst_apply]
  rfl

/-- The reference's result array is the layer of its arguments (the two aggregated arrays entering as they are
    computed from the arguments, unopened). -/
theorem result_eq :
    val_main_v61 (F := Ideal) x0 x1 x2 x3 x4 x5 x6 x7 x8 x9 x10 x11 x12
      = layer x0 (val_main_v12 (F := Ideal) x0 x1 x2 x3) (val_main_v25 (F := Ideal) x0 x4 x5 x6) x7 x9 x10 x8 x11 x12 := by
  funext i
  obtain ⟨r, c, rfl⟩ : ∃ (r : Fin 50000) (c : Fin 128), i = ix2 r c := ⟨i 0, i 1, eq_ix2 i⟩
  rw [out_apply, ← mixRowK_eq_mixRowR]
  rfl

end Cert.ReferenceIdeal.RefValue

end
-- ==== Proof.lean ====
/-
  A message-passing layer over 50000 nodes with 128 features: the node's own features and two neighbourhood sums
  (for each edge, the source node's row scaled by the edge's value, added into the target node's row) are each
  multiplied by a 128 x 128 weight, the three products and a bias are added, each node's 128 numbers are normalised
  (their mean subtracted, the result multiplied by the inverse square root of its mean square plus a constant, then
  scaled and shifted per column), and negative entries are replaced by zero.

  The kernel's program computes the neighbourhood sums on the host and everything from the products on in one
  region over ten blocks of 5000 nodes; the reference computes everything on the host over whole arrays. On the
  extended reals the two differ only in the order in which the four terms of the pre-normalisation sum are added,
  and addition there is commutative and associative; the inputs' finiteness is not needed. The neighbourhood sums
  are the same operations of the same arguments in both programs and enter the proof as one unopened term.

  The frames of the two kernel programs are the generated ones; the reference's frame is its run with the result
  dropped; the idealisation rewrote nothing. The value claim sets the kernel's run (Proof/KernelRun.lean: blocks
  to array in Proof/Whole.lean over the body's arithmetic in Proof/Payload.lean, the host side in
  Proof/HostSide.lean) beside the reference's (Proof/RefValue.lean), both at the layer of Proof/Spec.lean.
-/
import proofs.«123231_j65807488909810_2_alg».proof.Defs
import proofs.«123231_j65807488909810_2_alg».proof.Proof.Gen.Kernel
import proofs.«123231_j65807488909810_2_alg».proof.Proof.Gen.Kernel.Skeleton
import proofs.«123231_j65807488909810_2_alg».proof.Proof.Gen.Kernel.Launch
import proofs.«123231_j65807488909810_2_alg».proof.Proof.Gen.Kernel.Points
import proofs.«123231_j65807488909810_2_alg».proof.Proof.Gen.Kernel.Frame
import proofs.«123231_j65807488909810_2_alg».proof.Proof.Gen.KernelIdeal
import proofs.«123231_j65807488909810_2_alg».proof.Proof.Gen.KernelIdeal.Skeleton
import proofs.«123231_j65807488909810_2_alg».proof.Proof.Gen.KernelIdeal.Launch
import proofs.«123231_j65807488909810_2_alg».proof.Proof.Gen.KernelIdeal.Points
import proofs.«123231_j65807488909810_2_alg».proof.Proof.Gen.KernelIdeal.Frame
import proofs.«123231_j65807488909810_2_alg».proof.Proof.Gen.ReferenceIdeal
import proofs.«123231_j65807488909810_2_alg».proof.Proof.Gen.Pre_finite_inputs
import proofs.«123231_j65807488909810_2_alg».proof.Proof.Gen.KernelIdeal.Value
import proofs.«123231_j65807488909810_2_alg».proof.Proof.Gen.ReferenceIdeal.Run
import proofs.«123231_j65807488909810_2_alg».proof.Proof.Gen.ReferenceIdeal.Read
import proofs.«123231_j65807488909810_2_alg».proof.Proof.KernelRun
import proofs.«123231_j65807488909810_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the layer of the
    arguments: the kernel's by its run, the reference's by its run read at an index, the two orders of addition
    being one on the extended reals. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v61_eq, Cert.ReferenceIdeal.RefValue.result_eq, a0, a1, a2, a3, a4, a5, a6, a7, a8, a9, a10, a11, a12]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
